-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x512 : Shape := ⟨2, ![256, 512]⟩
abbrev S256 : Shape := ⟨1, ![256]⟩
abbrev S1x256 : Shape := ⟨2, ![1, 256]⟩
abbrev S1 : Shape := ⟨1, ![1]⟩
abbrev S2x300000 : Shape := ⟨2, ![2, 300000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x256 .f32) (main_arg1 : FVec F S256x512 .f32) (main_arg2 : FVec F S256 .f32) (main_arg3 : FVec F S1x256 .f32) (main_arg4 : FVec F S1 .f32) (main_arg5 : IVec S2x300000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_v13 main_v16
-- ==== Kernel.lean ====
abbrev S100000x256 : Shape := ⟨2, ![100000, 256]⟩
abbrev S256x512 : Shape := ⟨2, ![256, 512]⟩
abbrev S256 : Shape := ⟨1, ![256]⟩
abbrev S1x256 : Shape := ⟨2, ![1, 256]⟩
abbrev S1 : Shape := ⟨1, ![1]⟩
abbrev S2x300000 : Shape := ⟨2, ![2, 300000]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S256x256 : Shape := ⟨2, ![256, 256]⟩
abbrev S1x1 : Shape := ⟨2, ![1, 1]⟩
abbrev S6000x256 : Shape := ⟨2, ![6000, 256]⟩
abbrev S6000x1 : Shape := ⟨2, ![6000, 1]⟩
abbrev S6000 : Shape := ⟨1, ![6000]⟩

abbrev nBuf : Space → Nat
  | .hbm => 39
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S256x512, .f32⟩
  | .hbm, ⟨2, _⟩ => ⟨S256, .f32⟩
  | .hbm, ⟨3, _⟩ => ⟨S1x256, .f32⟩
  | .hbm, ⟨4, _⟩ => ⟨S1, .f32⟩
  | .hbm, ⟨5, _⟩ => ⟨S2x300000, .i32⟩
  | .hbm, ⟨6, _⟩ => ⟨S1x300000, .i32⟩
  | .hbm, ⟨7, _⟩ => ⟨S300000, .i32⟩
  | .hbm, ⟨8, _⟩ => ⟨S1x300000, .i32⟩
  | .hbm, ⟨9, _⟩ => ⟨S300000, .i32⟩
  | .hbm, ⟨10, _⟩ => ⟨S100000x256, .bf16⟩
  | .hbm, ⟨11, _⟩ => ⟨S_, .i32⟩
  | .hbm, ⟨12, _⟩ => ⟨S300000, .i32⟩
  | .hbm, ⟨13, _⟩ => ⟨S300000, .i1⟩
  | .hbm, ⟨14, _⟩ => ⟨S_, .i32⟩
  | .hbm, ⟨15, _⟩ => ⟨S300000, .i32⟩
  | .hbm, ⟨16, _⟩ => ⟨S300000, .i32⟩
  | .hbm, ⟨17, _⟩ => ⟨S300000, .i32⟩
  | .hbm, ⟨18, _⟩ => ⟨S300000x1, .i32⟩
  | .hbm, ⟨19, _⟩ => ⟨S300000x256, .bf16⟩
  | .hbm, ⟨20, _⟩ => ⟨S_, .i32⟩
  | .hbm, ⟨21, _⟩ => ⟨S300000, .i32⟩
  | .hbm, ⟨22, _⟩ => ⟨S300000, .i1⟩
  | .hbm, ⟨23, _⟩ => ⟨S_, .i32⟩
  | .hbm, ⟨24, _⟩ => ⟨S300000, .i32⟩
  | .hbm, ⟨25, _⟩ => ⟨S300000, .i32⟩
  | .hbm, ⟨26, _⟩ => ⟨S300000, .i32⟩
  | .hbm, ⟨27, _⟩ => ⟨S300000x1, .i32⟩
  | .hbm, ⟨28, _⟩ => ⟨S300000x256, .bf16⟩
  | .hbm, ⟨29, _⟩ => ⟨S256x256, .f32⟩
  | .hbm, ⟨30, _⟩ => ⟨S256x256, .f32⟩
  | .hbm, ⟨31, _⟩ => ⟨S256x256, .bf16⟩
  | .hbm, ⟨32, _⟩ => ⟨S256x256, .f32⟩
  | .hbm, ⟨33, _⟩ => ⟨S256x256, .f32⟩
  | .hbm, ⟨34, _⟩ => ⟨S256x256, .bf16⟩
  | .hbm, ⟨35, _⟩ => ⟨S1x256, .f32⟩
  | .hbm, ⟨36, _⟩ => ⟨S1x1, .f32⟩
  | .hbm, ⟨37, _⟩ => ⟨S300000x1, .f32⟩
  | .hbm, ⟨38, _⟩ => ⟨S300000, .f32⟩
  | .local _ .vmem, ⟨0, _⟩ => ⟨S6000x256, .bf16⟩
  | .local _ .vmem, ⟨1, _⟩ => ⟨S6000x256, .bf16⟩
  | .local _ .vmem, ⟨2, _⟩ => ⟨S6000x256, .bf16⟩
  | .local _ .vmem, ⟨3, _⟩ => ⟨S6000x256, .bf16⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S1x256, .f32⟩
  | .local _ .vmem, ⟨8, _⟩ => ⟨S1x1, .f32⟩
  | .local _ .vmem, ⟨9, _⟩ => ⟨S6000x1, .f32⟩
  | .local _ .vmem, ⟨10, _⟩ => ⟨S6000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c : Ref sig .tc := ⟨.hbm, 11, rfl⟩
abbrev main_call0_v5 : Ref sig .tc := ⟨.hbm, 12, rfl⟩
abbrev main_call0_v6 : Ref sig .tc := ⟨.hbm, 13, rfl⟩
abbrev main_call0_c_0 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_1 : Ref sig .tc := ⟨.hbm, 20, rfl⟩
abbrev main_call0_v12 : Ref sig .tc := ⟨.hbm, 21, rfl⟩
abbrev main_call0_v13 : Ref sig .tc := ⟨.hbm, 22, rfl⟩
abbrev main_call0_c_2 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_call0_v27 : Ref sig .tc := ⟨.hbm, 37, rfl⟩
abbrev main_v0 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bitsLt_bf16_f32 : FTy.bits .bf16 < FTy.bits .f32
  bcast_S_S300000 : S_.BroadcastsInDim S300000 (![] : Fin 0 → Fin S300000.rank)
  bcast_S300000_S300000x1_0 : S300000.BroadcastsInDim S300000x1 (![0] : Fin 1 → Fin S300000x1.rank)
  slices_S256x512_S256x256_0_0 : S256x512.Slices ![0, 0] S256x256
  transposes_S256x256_S256x256_1_0 : S256x256.Transposes [1, 0] S256x256
  slices_S256x512_S256x256_0_256 : S256x512.Slices ![0, 256] S256x256
  shapeCasts_S256_S1x256 : S256.ShapeCasts S1x256
  shapeCasts_S1_S1x1 : S1.ShapeCasts S1x1
  shapeCasts_S300000x1_S300000 : S300000x1.ShapeCasts S300000
  inb_S6000x256_S6000x256_0_0 : ∀ a, (![0, 0] : Fin 2 → Nat) a + S6000x256.size a ≤ S6000x256.size a
  h_S6000x256 : 0 < S6000x256.numel
  shapeCasts_S6000x256_S6000x256 : S6000x256.ShapeCasts S6000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6000x256 : S1x256.Broadcasts S6000x256
  reduces_S6000x256_S6000 : S6000x256.Reduces [1] S6000
  shapeCasts_S6000_S6000x1 : S6000.ShapeCasts S6000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6000x1 : S1x1.Broadcasts S6000x1
  inb_S6000x1_S6000x1_0_0 : ∀ a, (![0, 0] : Fin 2 → Nat) a + S6000x1.size a ≤ S6000x1.size a
  h_S6000x1 : 0 < S6000x1.numel
  gather_S100000x256_S300000x1_S300000x256_1_0_n_n_0_1_1256_wf : GatherDims.WF S100000x256 S300000x1 S300000x256 [1] [0] [] [0] [] 1 ![1, 256]
  dot_S6000x256_S256x256_S6000x256_1_0_0_1_n_n_wf : DotDims.WF S6000x256 S256x256 S6000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x256.size a ≤ S300000x256.size a
  hwx0_0 : ∀ i : grid0.Coords, EltTy.bits .bf16 = 32 ∨ (Rect.block (s := S300000x256) S6000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x256.size a ≤ S300000x256.size a
  hwx0_1 : ∀ i : grid0.Coords, EltTy.bits .bf16 = 32 ∨ (Rect.block (s := S300000x256) S6000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6000x1.size a ≤ S300000x1.size a
  hwx0_7 : ∀ i : grid0.Coords, EltTy.bits .f32 = 32 ∨ (Rect.block (s := S300000x1) S6000x1.size (cc0_transform_7 i) (hinb0_7 i)).WholeWords (EltTy.packing .f32)

variable [Facts₀]

def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S6000x256_S256x256_S6000x256_1_0_0_1_n_n : DotDims S6000x256 S256x256 S6000x256 where
  lhsContracting := [1]
  rhsContracting := [0]
  lhsNonContracting := [0]
  rhsNonContracting := [1]
  lhsBatch := []
  rhsBatch := []
  wf := dot_S6000x256_S256x256_S6000x256_1_0_0_1_n_n_wf

abbrev win0_0 : Pipeline.Window sig grid0 :=
  Pipeline.Window.ofSpec (Memref.whole main_call0_v11) S6000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v18) S6000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v21) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v24) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v26) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v27) S6000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x256 : Shape := ⟨2, ![100000, 256]⟩
abbrev S256x512 : Shape := ⟨2, ![256, 512]⟩
abbrev S256 : Shape := ⟨1, ![256]⟩
abbrev S1x256 : Shape := ⟨2, ![1, 256]⟩
abbrev S1 : Shape := ⟨1, ![1]⟩
abbrev S2x300000 : Shape := ⟨2, ![2, 300000]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S256x256 : Shape := ⟨2, ![256, 256]⟩
abbrev S1x1 : Shape := ⟨2, ![1, 1]⟩

abbrev nBuf : Space → Nat
  | .hbm => 44
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x512, .f32⟩
  | .hbm, ⟨2, _⟩ => ⟨S256, .f32⟩
  | .hbm, ⟨3, _⟩ => ⟨S1x256, .f32⟩
  | .hbm, ⟨4, _⟩ => ⟨S1, .f32⟩
  | .hbm, ⟨5, _⟩ => ⟨S2x300000, .i32⟩
  | .hbm, ⟨6, _⟩ => ⟨S1x300000, .i32⟩
  | .hbm, ⟨7, _⟩ => ⟨S300000, .i32⟩
  | .hbm, ⟨8, _⟩ => ⟨S_, .i32⟩
  | .hbm, ⟨9, _⟩ => ⟨S300000, .i32⟩
  | .hbm, ⟨10, _⟩ => ⟨S300000, .i1⟩
  | .hbm, ⟨11, _⟩ => ⟨S_, .i32⟩
  | .hbm, ⟨12, _⟩ => ⟨S300000, .i32⟩
  | .hbm, ⟨13, _⟩ => ⟨S300000, .i32⟩
  | .hbm, ⟨14, _⟩ => ⟨S300000, .i32⟩
  | .hbm, ⟨15, _⟩ => ⟨S300000x1, .i32⟩
  | .hbm, ⟨16, _⟩ => ⟨S300000x256, .f32⟩
  | .hbm, ⟨17, _⟩ => ⟨S1x300000, .i32⟩
  | .hbm, ⟨18, _⟩ => ⟨S300000, .i32⟩
  | .hbm, ⟨19, _⟩ => ⟨S_, .i32⟩
  | .hbm, ⟨20, _⟩ => ⟨S300000, .i32⟩
  | .hbm, ⟨21, _⟩ => ⟨S300000, .i1⟩
  | .hbm, ⟨22, _⟩ => ⟨S_, .i32⟩
  | .hbm, ⟨23, _⟩ => ⟨S300000, .i32⟩
  | .hbm, ⟨24, _⟩ => ⟨S300000, .i32⟩
  | .hbm, ⟨25, _⟩ => ⟨S300000, .i32⟩
  | .hbm, ⟨26, _⟩ => ⟨S300000x1, .i32⟩
  | .hbm, ⟨27, _⟩ => ⟨S300000x256, .f32⟩
  | .hbm, ⟨28, _⟩ => ⟨S256x256, .f32⟩
  | .hbm, ⟨29, _⟩ => ⟨S256x256, .f32⟩
  | .hbm, ⟨30, _⟩ => ⟨S300000x256, .f32⟩
  | .hbm, ⟨31, _⟩ => ⟨S300000x256, .f32⟩
  | .hbm, ⟨32, _⟩ => ⟨S300000x256, .f32⟩
  | .hbm, ⟨33, _⟩ => ⟨S1x256, .f32⟩
  | .hbm, ⟨34, _⟩ => ⟨S300000x256, .f32⟩
  | .hbm, ⟨35, _⟩ => ⟨S300000x256, .f32⟩
  | .hbm, ⟨36, _⟩ => ⟨S_, .f32⟩
  | .hbm, ⟨37, _⟩ => ⟨S300000x256, .f32⟩
  | .hbm, ⟨38, _⟩ => ⟨S300000x256, .f32⟩
  | .hbm, ⟨39, _⟩ => ⟨S300000x1, .f32⟩
  | .hbm, ⟨40, _⟩ => ⟨S1x1, .f32⟩
  | .hbm, ⟨41, _⟩ => ⟨S300000x1, .f32⟩
  | .hbm, ⟨42, _⟩ => ⟨S300000x1, .f32⟩
  | .hbm, ⟨43, _⟩ => ⟨S300000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  slices_S256x512_S256x256_0_0 : S256x512.Slices ![0, 0] S256x256
  slices_S256x512_S256x256_0_256 : S256x512.Slices ![0, 256] S256x256
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  shapeCasts_S300000x1_S300000 : S300000x1.ShapeCasts S300000
  gather_S100000x256_S300000x1_S300000x256_1_0_n_n_0_1_1256_wf : GatherDims.WF S100000x256 S300000x1 S300000x256 [1] [0] [] [0] [] 1 ![1, 256]
  dot_S300000x256_S256x256_S300000x256_1_1_0_0_n_n_wf : DotDims.WF S300000x256 S256x256 S300000x256 [1] [1] [0] [0] [] []
  dot_S300000x256_S1x256_S300000x1_1_1_0_0_n_n_wf : DotDims.WF S300000x256 S1x256 S300000x1 [1] [1] [0] [0] [] []

variable [Facts₀]

def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S300000x256_S256x256_S300000x256_1_1_0_0_n_n : DotDims S300000x256 S256x256 S300000x256 where
  lhsContracting := [1]
  rhsContracting := [1]
  lhsNonContracting := [0]
  rhsNonContracting := [0]
  lhsBatch := []
  rhsBatch := []
  wf := dot_S300000x256_S256x256_S300000x256_1_1_0_0_n_n_wf
def dot_S300000x256_S1x256_S300000x1_1_1_0_0_n_n : DotDims S300000x256 S1x256 S300000x1 where
  lhsContracting := [1]
  rhsContracting := [1]
  lhsNonContracting := [0]
  rhsNonContracting := [0]
  lhsBatch := []
  rhsBatch := []
  wf := dot_S300000x256_S1x256_S300000x1_1_1_0_0_n_n_wf

class Facts : Prop extends Facts₀ where

variable [Facts]
-- ==== Proof.EdgeScore.lean ====
/-
  The score a two-layer perceptron gives one edge of a graph.

  An edge joins a source node and a target node; each node carries a row of 256 features.  The first layer has 256
  hidden units: unit `h` takes the source row against the first 256 entries of row `h` of the weight matrix, the
  target row against the last 256 entries of that row (the weight matrix has 512 columns: the two rows are thought of
  as laid end to end), adds the unit's bias and clips at zero.  The second layer is one unit: the hidden values
  against one weight row, plus one bias.  On the extended reals every operation below is total, and the sums are over
  a commutative monoid, so no entry has to be finite for the term to make sense or for two arrangements of it to agree.
-/
import Idealize.ShloMosaic.PureOps.Ideal
import Idealize.ShloMosaic.Lib.ValueIdx

noncomputable section

namespace Cert.EdgeScore

open Idealize.ShloMosaic Idealize.ShloMosaic.ValueIdx

/-- Column `d` of the first half of a 512-wide row. -/
abbrev lo (d : Fin 256) : Fin 512 := ⟨d.val, by have := d.isLt; omega⟩
/-- Column `d` of the second half of a 512-wide row. -/
abbrev hi (d : Fin 256) : Fin 512 := ⟨256 + d.val, by have := d.isLt; omega⟩

/-- The score of one edge: `s`, `t` the feature rows of its two ends; `ws h d`, `wt h d` hidden unit `h`'s weights on
    feature `d` of the source and of the target; `b h` its bias; `w h` the output unit's weight on it; `b2` the output
    unit's bias.  The clip is a maximum with the value of the all-zero word. -/
def score (s t : Fin 256 → EReal) (ws wt : Fin 256 → Fin 256 → EReal) (b w : Fin 256 → EReal) (b2 : EReal) : EReal :=
  (∑ h : Fin 256, max ((∑ d : Fin 256, s d * ws h d) + (∑ d : Fin 256, t d * wt h d) + b h) (Ideal.ofBits .f32 0x00000000#32) * w h) + b2

/-- The scores of all 300000 edges, as a one-column matrix: row `e` from rows `e` of the two gathered feature
    matrices, the 256 × 512 first-layer weights, the 256 first-layer biases, the 1 × 256 second-layer weights and the
    single second-layer bias. -/
def scores (src dst : (⟨2, ![300000, 256]⟩ : Shape).Idx → EReal) (W1 : (⟨2, ![256, 512]⟩ : Shape).Idx → EReal)
    (b1 : (⟨1, ![256]⟩ : Shape).Idx → EReal) (W2 : (⟨2, ![1, 256]⟩ : Shape).Idx → EReal) (b2 : (⟨1, ![1]⟩ : Shape).Idx → EReal) :
    (⟨2, ![300000, 1]⟩ : Shape).Idx → EReal := fun j =>
  score (fun d => src (ix2 (j 0) d)) (fun d => dst (ix2 (j 0) d)) (fun h d => W1 (ix2 h (lo d))) (fun h d => W1 (ix2 h (hi d)))
    (fun h => b1 (ix1 h)) (fun h => W2 (ix2 (0 : Fin 1) h)) (b2 (ix1 (0 : Fin 1)))

end Cert.EdgeScore

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.LibMosaicRows.lean ====
/-
  Four readings of a kernel's row-wise vector operations at one entry, at the ideal instance, for any sizes.

  * col_repeated: a one-column matrix [a, 1] broadcast to [a, b] reads, at (p, c), the column's entry p — a row's
    maximum or sum, or a per-row scale, spread over the row.
  * rowSum_at: the sum reduction of a matrix [a, b] over its columns, from the zero word, reads at row p the sum over
    the b columns of the row's entries.
  * rowMax_at: the maximum reduction over the columns, from the word of -∞, reads at row p the fold of max from that
    word's value over the row's entries.
  * exp_at: the exponential of a vector reads, at an index, the exponential of the entry.
-/
import Idealize.ShloMosaic.PureOps.Ideal.Laws
import Idealize.ShloMosaic.Lib.ValueIdx
import Idealize.ShloMosaic.Lib.Pipeline.Value

noncomputable section

namespace Cert.Lib.MosaicRows

open Idealize.ShloMosaic Idealize.ShloMosaic.ValueIdx

/-- A one-column matrix broadcast across b columns reads, at (p, c), the column's entry p. -/
theorem col_repeated {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of row p with column k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- The sum over the columns, from the zero word, at row p: the sum of the row's entries. -/
theorem rowSum_at {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

/-- The maximum over the columns, from the word of -∞, at row p: the fold of max from -∞ over the row's entries. -/
theorem rowMax_at {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  have hf : (src ∘ h.lift (ix1 p)) = fun k : Fin b => src (ix2 p k) := funext fun k => congrArg src (lift_row h p k)
  exact congrArg (fun f => Finset.fold max (Ideal.ofBits .f32 0xFF800000#32) f (Finset.univ : Finset (Fin b))) hf

/-- The exponential of a vector at an index is the exponential of the entry. -/
theorem exp_at {s : Shape} (v : FVec Ideal s .f32) (i : s.Idx) : exp v i = Ideal.exp (v i) := rfl

end Cert.Lib.MosaicRows

end
-- ==== Proof.LibColumns.lean ====
/-
  Two layout readings used by every stage: a vector recast as a one-column matrix read at `(p, 0)`, and a scalar
  broadcast to any shape read at any index.
-/
import Idealize.ShloMosaic.Lib.ValueIdx
import Idealize.ShloMosaic.Lib.Pipeline.Value

noncomputable section

namespace Cert.Sage.Layout

open Idealize.ShloMosaic Idealize.ShloMosaic.ValueIdx

/-- An `[n]` array cast to `[n, 1]` reads, at `(p, 0)`, the operand at `p`. -/
theorem shapeCast_n_n1_apply {α : Type} {n : ℕ} (x : (⟨1, ![n]⟩ : Shape).Idx → α) (h : (⟨1, ![n]⟩ : Shape).ShapeCasts ⟨2, ![n, 1]⟩)
    (p : Fin n) : shapeCast ⟨2, ![n, 1]⟩ x h (ix2 p (0 : Fin 1)) = x (ix1 p) :=
  shapeCast_apply x h _ _ (by
    rw [Shape.rowMajor_val_one, Shape.rowMajor_val_two]
    show p.val = p.val * 1 + 0
    omega)

/-- A scalar broadcast to a shape reads, at every index, the scalar. -/
theorem broadcastInDim_scalar_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

end Cert.Sage.Layout

end
-- ==== Proof.BodyScore.lean ====
/-
  What one run of the kernel body stores, read at one row.

  The body holds a block of 6000 edges: the two gathered feature blocks (6000 × 256 each), the two halves of the
  first-layer weights already transposed (256 × 256 each: entry (d, h) is unit h's weight on feature d), the first-layer
  biases and the second-layer weights as one-row matrices, and the second-layer bias as a 1 × 1 matrix.  It forms the two
  matrix products into zero accumulators, adds them and the bias row, clips at zero, multiplies by the weight row,
  sums each row over its 256 lanes from zero and adds the bias.  Read at row p this is the score of the edge whose
  feature rows are row p of the two blocks.
-/
import proofs.«163332_j47588237639882_2_alg».proof.Proof.Gen.KernelIdeal.Skeleton
import proofs.«163332_j47588237639882_2_alg».proof.Proof.EdgeScore
import proofs.«163332_j47588237639882_2_alg».proof.Proof.LibSplitContraction
import proofs.«163332_j47588237639882_2_alg».proof.Proof.LibMosaicRows
import proofs.«163332_j47588237639882_2_alg».proof.Proof.LibColumns
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.EdgeScore

/-- The block product's dimension record: the left operand's index at output (r, c) and contraction position q is
    (r, q), the right operand's (q, c). -/
theorem dot_l0 (j : S6000x256.Idx) (q : dot_S6000x256_S256x256_S6000x256_1_0_0_1_n_n.contr.Idx) :
    (dot_S6000x256_S256x256_S6000x256_1_0_0_1_n_n.lhsIdx j q 0).val = (j 0).val := by
  unfold DotDims.lhsIdx
  rw [dif_neg (show ¬(0 : Fin S6000x256.rank) ∈ dot_S6000x256_S256x256_S6000x256_1_0_0_1_n_n.lhsBatch by decide), dif_pos (show (0 : Fin S6000x256.rank) ∈ dot_S6000x256_S256x256_S6000x256_1_0_0_1_n_n.lhsNonContracting by decide)]
  rfl
theorem dot_l1 (j : S6000x256.Idx) (q : dot_S6000x256_S256x256_S6000x256_1_0_0_1_n_n.contr.Idx) :
    (dot_S6000x256_S256x256_S6000x256_1_0_0_1_n_n.lhsIdx j q 1).val = (q ⟨0, by decide⟩).val :=
  dot_S6000x256_S256x256_S6000x256_1_0_0_1_n_n.lhsIdx_val_of_single rfl j q
theorem dot_r0 (j : S6000x256.Idx) (q : dot_S6000x256_S256x256_S6000x256_1_0_0_1_n_n.contr.Idx) :
    (dot_S6000x256_S256x256_S6000x256_1_0_0_1_n_n.rhsIdx j q 0).val = (q ⟨0, by decide⟩).val :=
  dot_S6000x256_S256x256_S6000x256_1_0_0_1_n_n.rhsIdx_val_of_single rfl j q
theorem dot_r1 (j : S6000x256.Idx) (q : dot_S6000x256_S256x256_S6000x256_1_0_0_1_n_n.contr.Idx) :
    (dot_S6000x256_S256x256_S6000x256_1_0_0_1_n_n.rhsIdx j q 1).val = (j 1).val := by
  unfold DotDims.rhsIdx
  rw [dif_neg (show ¬(1 : Fin S256x256.rank) ∈ dot_S6000x256_S256x256_S6000x256_1_0_0_1_n_n.rhsBatch by decide), dif_pos (show (1 : Fin S256x256.rank) ∈ dot_S6000x256_S256x256_S6000x256_1_0_0_1_n_n.rhsNonContracting by decide)]
  rfl

/-- One block product into the zero accumulator, at (p, h): row p of the features against column h of the weights. -/
theorem product_at (x : FVec Ideal S6000x256 .bf16) (w : FVec Ideal S256x256 .bf16) (p : Fin 6000) (h : Fin 256) :
    matmul dot_S6000x256_S256x256_S6000x256_1_0_0_1_n_n none x w (constant (F := Ideal) S6000x256 .f32 0x00000000#32) (ix2 p h)
      = ∑ d : Fin 256, x (ix2 p d) * w (ix2 d h) :=
  Cert.Lib.SplitContraction.matmul_zero_at dot_S6000x256_S256x256_S6000x256_1_0_0_1_n_n rfl rfl dot_l0 dot_l1 dot_r0 dot_r1 none x w p h

/-- A one-row matrix repeated down 6000 rows reads the row's entry at the column. -/
theorem row_repeated (v : (⟨2, ![1, 256]⟩ : Shape).Idx → EReal) (hb : (⟨2, ![1, 256]⟩ : Shape).Broadcasts ⟨2, ![6000, 256]⟩)
    (p : Fin 6000) (h : Fin 256) : broadcastTo ⟨2, ![6000, 256]⟩ v hb (ix2 p h) = v (ix2 (0 : Fin 1) h) := by
  refine broadcastTo_apply v hb (ix2 p h) (ix2 (0 : Fin 1) h) fun ax => ?_
  match ax with
  | ⟨0, _⟩ => rfl
  | ⟨1, _⟩ => rfl

/-- A 1 × 1 matrix repeated down 6000 rows reads its one entry. -/
theorem cell_repeated (v : (⟨2, ![1, 1]⟩ : Shape).Idx → EReal) (hb : (⟨2, ![1, 1]⟩ : Shape).Broadcasts ⟨2, ![6000, 1]⟩)
    (p : Fin 6000) : broadcastTo ⟨2, ![6000, 1]⟩ v hb (ix2 p (0 : Fin 1)) = v (ix2 (0 : Fin 1) (0 : Fin 1)) := by
  refine broadcastTo_apply v hb (ix2 p (0 : Fin 1)) (ix2 (0 : Fin 1) (0 : Fin 1)) fun ax => ?_
  match ax with
  | ⟨0, _⟩ => rfl
  | ⟨1, _⟩ => rfl

/-- THE BODY'S STORE AT ROW p: the score of the edge whose ends' features are row p of the two blocks. -/
theorem payload_at (x0 x1 : Vec Ideal S6000x256 .bf16) (x2 x3 : Vec Ideal S256x256 .bf16) (x4 x5 : Vec Ideal S1x256 .f32)
    (x6 : Vec Ideal S1x1 .f32) (p : Fin 6000) :
    k0_pay1 (F := Ideal) x0 x1 x2 x3 x4 x5 x6 (ix2 p (0 : Fin 1))
      = score (fun d => x0 (ix2 p d)) (fun d => x1 (ix2 p d)) (fun h d => x2 (ix2 d h)) (fun h d => x3 (ix2 d h))
          (fun h => x4 (ix2 (0 : Fin 1) h)) (fun h => x5 (ix2 (0 : Fin 1) h)) (x6 (ix2 (0 : Fin 1) (0 : Fin 1))) := by
  unfold k0_pay1 score
  simp only [shapeCast_self]
  rw [addf_apply, Cert.Sage.Layout.shapeCast_n_n1_apply, Cert.Lib.MosaicRows.rowSum_at, cell_repeated]
  refine congrArg (· + _) (Finset.sum_congr rfl fun h _ => ?_)
  rw [mulf_apply, maximumf_apply, addf_apply, addf_apply, product_at, product_at, row_repeated, row_repeated, broadcast_apply]
  rfl

end Cert.KernelIdeal.Body

end
-- ==== Proof.EdgeBlocks.lean ====
/-
  From blocks of 6000 edges to the whole column of 300000 scores.

  The region runs the body at 50 grid points.  At point t the two gathered feature matrices are read through rows
  6000 t … 6000 t + 5999, the five small operands whole, and the body's result goes to rows 6000 t … 6000 t + 5999 of the
  one-column output.  Row p of what point t writes back is therefore the score of edge 6000 t + p computed from the
  operand arrays as the region finds them, and since every edge e lies in the block of point e / 6000 the output array
  ends holding the column of all scores.
-/
import proofs.«163332_j47588237639882_2_alg».proof.Proof.Gen.KernelIdeal.Frame
import proofs.«163332_j47588237639882_2_alg».proof.Proof.BodyScore
import proofs.«163332_j47588237639882_2_alg».proof.Proof.EdgeScore
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx
open Idealize.SL.Sem Cert.EdgeScore
open Idealize.ShloMosaic.Pipeline (Dat)

variable (m : (ℓ : Loc nD τ sig) → Buf (Elt Ideal) ℓ)

theorem origin : (![0, 0] : Fin 2 → Nat) = fun _ => 0 := funext fun a => by fin_cases a <;> rfl

/-- The printed index maps over the grid: the two feature windows and the output window sit at block row t, column 0;
    the five small windows at block (0, 0). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The column of scores computed from the region's operand arrays as the region finds them. -/
def column (c : Dev nD) : S300000x1.Idx → EReal := fun j =>
  score (fun d => (V m c main_call0_v11 : S300000x256.Idx → EReal) (ix2 (j 0) d))
    (fun d => (V m c main_call0_v18 : S300000x256.Idx → EReal) (ix2 (j 0) d))
    (fun h d => (V m c main_call0_v21 : S256x256.Idx → EReal) (ix2 d h))
    (fun h d => (V m c main_call0_v24 : S256x256.Idx → EReal) (ix2 d h))
    (fun h => (V m c main_call0_v25 : S1x256.Idx → EReal) (ix2 (0 : Fin 1) h))
    (fun h => (V m c main_arg3 : S1x256.Idx → EReal) (ix2 (0 : Fin 1) h))
    ((V m c main_call0_v26 : S1x1.Idx → EReal) (ix2 (0 : Fin 1) (0 : Fin 1)))

/-- The source features' block at point t is rows 6000 t … of the gathered source matrix. -/
theorem srcBlock_at (c : Dev nD) (t : Fin cfg0.N) (x : S6000x256.Idx) (k : S300000x256.Idx)
    (hk0 : (k 0).val = 6000 * t.val + (x 0).val) (hk1 : (k 1).val = (x 1).val) :
    (iblk m c 0 t : Vec Ideal S6000x256 .bf16) x = (V m c main_call0_v11 : S300000x256.Idx → EReal) k := by
  obtain ⟨e0, e1, -⟩ := blockIndex t
  unfold iblk
  rw [View.read_apply]
  show V m c main_call0_v11 _ = V m c main_call0_v11 _
  refine congrArg (V m c main_call0_v11) (funext fun a => Fin.ext ?_)
  match a with
  | ⟨0, _⟩ => show win0_0.index t (0 : Fin 2) * 6000 + 1 * (x 0).val = (k 0).val; rw [e0, hk0]; omega
  | ⟨1, _⟩ => show win0_0.index t (1 : Fin 2) * 256 + 1 * (x 1).val = (k 1).val; rw [e1, hk1]; omega

/-- The target features' block at point t is rows 6000 t … of the gathered target matrix. -/
theorem dstBlock_at (c : Dev nD) (t : Fin cfg0.N) (x : S6000x256.Idx) (k : S300000x256.Idx)
    (hk0 : (k 0).val = 6000 * t.val + (x 0).val) (hk1 : (k 1).val = (x 1).val) :
    (iblk m c 1 t : Vec Ideal S6000x256 .bf16) x = (V m c main_call0_v18 : S300000x256.Idx → EReal) k := by
  obtain ⟨-, -, e0, e1, -⟩ := blockIndex t
  unfold iblk
  rw [View.read_apply]
  show V m c main_call0_v18 _ = V m c main_call0_v18 _
  refine congrArg (V m c main_call0_v18) (funext fun a => Fin.ext ?_)
  match a with
  | ⟨0, _⟩ => show win0_1.index t (0 : Fin 2) * 6000 + 1 * (x 0).val = (k 0).val; rw [e0, hk0]; omega
  | ⟨1, _⟩ => show win0_1.index t (1 : Fin 2) * 256 + 1 * (x 1).val = (k 1).val; rw [e1, hk1]; omega

/-- Each small operand's block is the whole operand, at every point. -/
theorem srcWeightsBlock (c : Dev nD) (t : Fin cfg0.N) (x : S256x256.Idx) :
    (iblk m c 2 t : Vec Ideal S256x256 .bf16) x = (V m c main_call0_v21 : S256x256.Idx → EReal) x := by
  obtain ⟨-, -, -, -, e0, e1, -⟩ := blockIndex t
  unfold iblk
  rw [View.read_apply]
  show V m c main_call0_v21 _ = V m c main_call0_v21 _
  refine congrArg (V m c main_call0_v21) (funext fun a => Fin.ext ?_)
  match a with
  | ⟨0, _⟩ => show win0_2.index t (0 : Fin 2) * 256 + 1 * (x 0).val = (x 0).val; rw [e0]; omega
  | ⟨1, _⟩ => show win0_2.index t (1 : Fin 2) * 256 + 1 * (x 1).val = (x 1).val; rw [e1]; omega
theorem dstWeightsBlock (c : Dev nD) (t : Fin cfg0.N) (x : S256x256.Idx) :
    (iblk m c 3 t : Vec Ideal S256x256 .bf16) x = (V m c main_call0_v24 : S256x256.Idx → EReal) x := by
  obtain ⟨-, -, -, -, -, -, e0, e1, -⟩ := blockIndex t
  unfold iblk
  rw [View.read_apply]
  show V m c main_call0_v24 _ = V m c main_call0_v24 _
  refine congrArg (V m c main_call0_v24) (funext fun a => Fin.ext ?_)
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega
theorem biasRowBlock (c : Dev nD) (t : Fin cfg0.N) (x : S1x256.Idx) :
    (iblk m c 4 t : Vec Ideal S1x256 .f32) x = (V m c main_call0_v25 : S1x256.Idx → EReal) x := by
  obtain ⟨-, -, -, -, -, -, -, -, e0, e1, -⟩ := blockIndex t
  unfold iblk
  rw [View.read_apply]
  show V m c main_call0_v25 _ = V m c main_call0_v25 _
  refine congrArg (V m c main_call0_v25) (funext fun a => Fin.ext ?_)
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega
theorem outWeightsBlock (c : Dev nD) (t : Fin cfg0.N) (x : S1x256.Idx) :
    (iblk m c 5 t : Vec Ideal S1x256 .f32) x = (V m c main_arg3 : S1x256.Idx → EReal) x := by
  obtain ⟨-, -, -, -, -, -, -, -, -, -, e0, e1, -⟩ := blockIndex t
  unfold iblk
  rw [View.read_apply]
  show V m c main_arg3 _ = V m c main_arg3 _
  refine congrArg (V m c main_arg3) (funext fun a => Fin.ext ?_)
  match a with
  | ⟨0, _⟩ => show win0_5.index t (0 : Fin 2) * 1 + 1 * (x 0).val = (x 0).val; rw [e0]; omega
  | ⟨1, _⟩ => show win0_5.index t (1 : Fin 2) * 256 + 1 * (x 1).val = (x 1).val; rw [e1]; omega
theorem biasCellBlock (c : Dev nD) (t : Fin cfg0.N) (x : S1x1.Idx) :
    (iblk m c 6 t : Vec Ideal S1x1 .f32) x = (V m c main_call0_v26 : S1x1.Idx → EReal) x := by
  obtain ⟨-, -, -, -, -, -, -, -, -, -, -, -, e0, e1, -⟩ := blockIndex t
  unfold iblk
  rw [View.read_apply]
  show V m c main_call0_v26 _ = V m c main_call0_v26 _
  refine congrArg (V m c main_call0_v26) (funext fun a => Fin.ext ?_)
  match a with
  | ⟨0, _⟩ => show win0_6.index t (0 : Fin 2) * 1 + 1 * (x 0).val = (x 0).val; rw [e0]; omega
  | ⟨1, _⟩ => show win0_6.index t (1 : Fin 2) * 1 + 1 * (x 1).val = (x 1).val; rw [e1]; omega

/-- Row p of the body's result at point t is the score of edge 6000 t + p. -/
theorem blockRow (c : Dev nD) (t : Fin cfg0.N) (p : Fin 6000) (j : S300000x1.Idx) (hj : (j 0).val = 6000 * t.val + p.val) :
    k0_pay1 (F := Ideal) (iblk m c 0 t) (iblk m c 1 t) (iblk m c 2 t) (iblk m c 3 t) (iblk m c 4 t) (iblk m c 5 t) (iblk m c 6 t) (ix2 p (0 : Fin 1))
      = column m c j := by
  refine (Cert.KernelIdeal.Body.payload_at (iblk m c 0 t) (iblk m c 1 t) (iblk m c 2 t) (iblk m c 3 t) (iblk m c 4 t) (iblk m c 5 t) (iblk m c 6 t) p).trans ?_
  unfold column
  have h0 : (fun d : Fin 256 => (iblk m c 0 t : Vec Ideal S6000x256 .bf16) (ix2 p d)) = fun d => (V m c main_call0_v11 : S300000x256.Idx → EReal) (ix2 (j 0) d) :=
    funext fun d => srcBlock_at m c t (ix2 p d) (ix2 (j 0) d) hj rfl
  have h1 : (fun d : Fin 256 => (iblk m c 1 t : Vec Ideal S6000x256 .bf16) (ix2 p d)) = fun d => (V m c main_call0_v18 : S300000x256.Idx → EReal) (ix2 (j 0) d) :=
    funext fun d => dstBlock_at m c t (ix2 p d) (ix2 (j 0) d) hj rfl
  have h2 : (fun h d : Fin 256 => (iblk m c 2 t : Vec Ideal S256x256 .bf16) (ix2 d h)) = fun h d => (V m c main_call0_v21 : S256x256.Idx → EReal) (ix2 d h) :=
    funext fun h => funext fun d => srcWeightsBlock m c t (ix2 d h)
  have h3 : (fun h d : Fin 256 => (iblk m c 3 t : Vec Ideal S256x256 .bf16) (ix2 d h)) = fun h d => (V m c main_call0_v24 : S256x256.Idx → EReal) (ix2 d h) :=
    funext fun h => funext fun d => dstWeightsBlock m c t (ix2 d h)
  have h4 : (fun h : Fin 256 => (iblk m c 4 t : Vec Ideal S1x256 .f32) (ix2 (0 : Fin 1) h)) = fun h => (V m c main_call0_v25 : S1x256.Idx → EReal) (ix2 (0 : Fin 1) h) :=
    funext fun h => biasRowBlock m c t (ix2 (0 : Fin 1) h)
  have h5 : (fun h : Fin 256 => (iblk m c 5 t : Vec Ideal S1x256 .f32) (ix2 (0 : Fin 1) h)) = fun h => (V m c main_arg3 : S1x256.Idx → EReal) (ix2 (0 : Fin 1) h) :=
    funext fun h => outWeightsBlock m c t (ix2 (0 : Fin 1) h)
  rw [h0, h1, h2, h3, h4, h5, biasCellBlock m c t (ix2 (0 : Fin 1) (0 : Fin 1))]

/-- WHAT POINT t WRITES BACK is block t of the column of scores. -/
theorem flushed_eq (c : Dev nD) (t : Fin cfg0.N) :
    (dats m 0 c).flushed 7 t = ((cfg0.win 7).blk t).view.read (Elt Ideal) (column m c) := by
  show (cfg0.win 7).cut (grid0.coords t) ((dats m 0 c).after 7 t) = _
  rw [after0_7]
  unfold out0_7
  rw [View.canon_unit_zero origin]
  simp only [View.ld_unit_zero (S := S6000x256) origin, View.ld_unit_zero (S := S256x256) origin, View.ld_unit_zero (S := S1x256) origin, View.ld_unit_zero (S := S1x1) origin]
  obtain ⟨-, -, -, -, -, -, -, -, -, -, -, -, -, -, e0, e1⟩ := blockIndex t
  funext y
  obtain ⟨p, q, rfl⟩ : ∃ (p : Fin 6000) (q : Fin 1), y = ix2 p q := ⟨y 0, y 1, eq_ix2 y⟩
  obtain rfl : q = 0 := Subsingleton.elim _ _
  refine blockRow m c t p _ ?_
  show win0_7.index t (0 : Fin 2) * 6000 + 1 * p.val = 6000 * t.val + p.val
  rw [e0]; omega

/-- An index of the output column is in point t's block iff each coordinate is in the block's range on its axis. -/
theorem mem_block (t : Fin cfg0.N) (i : S300000x1.Idx) :
    i ∈ ((cfg0.win 7).blk t).view.set ↔ ∀ a : Fin 2, win0_7.index t a * S6000x1.size a ≤ (i a).val ∧ (i a).val < win0_7.index t a * S6000x1.size a + S6000x1.size a := by
  show i ∈ ((View.whole main_call0_v27).slice (win0_7.rect t)).set ↔ _
  rw [View.set_slice_whole, Rect.mem_set_unit]
  exact Iff.rfl

/-- Every edge e lies in the block of point e / 6000, which is written back. -/
theorem covered (i : S300000x1.Idx) : ∃ t : Fin cfg0.N, (cfg0.win 7).flush t = true ∧ i ∈ ((cfg0.win 7).blk t).view.set := by
  have hi0 : (i 0).val < 300000 := (i 0).isLt
  have hi1 : (i 1).val < 1 := (i 1).isLt
  have hN : cfg0.N = 50 := N_0
  have ht : (i 0).val / 6000 < cfg0.N := by rw [hN]; omega
  obtain ⟨-, -, -, -, -, -, -, -, -, -, -, -, -, -, e0, e1⟩ := blockIndex ⟨(i 0).val / 6000, ht⟩
  refine ⟨⟨(i 0).val / 6000, ht⟩, flush0_7 _, ?_⟩
  rw [mem_block]
  intro a
  match a with
  | ⟨0, _⟩ =>
    show win0_7.index ⟨(i 0).val / 6000, ht⟩ (0 : Fin 2) * 6000 ≤ (i 0).val ∧ (i 0).val < win0_7.index ⟨(i 0).val / 6000, ht⟩ (0 : Fin 2) * 6000 + 6000
    rw [e0]
    show (i 0).val / 6000 * 6000 ≤ (i 0).val ∧ (i 0).val < (i 0).val / 6000 * 6000 + 6000
    omega
  | ⟨1, _⟩ =>
    show win0_7.index ⟨(i 0).val / 6000, ht⟩ (1 : Fin 2) * 1 ≤ (i 1).val ∧ (i 1).val < win0_7.index ⟨(i 0).val / 6000, ht⟩ (1 : Fin 2) * 1 + 1
    rw [e1]
    omega

/-- THE OUTPUT ARRAY after the region: the column of all 300000 scores. -/
theorem final (c : Dev nD) : (dats m 0 c).arrAt 7 cfg0.N = column m c :=
  (dats m 0 c).arrAt_eq_of_cover 7 (column m c) (fun t _ => flushed_eq m c t) covered

end Cert.KernelIdeal.Blocks

end
-- ==== Proof.KernelRun.lean ====
/-
  The kernel's run, read: every weakly fair execution ends with the result holding the column of edge scores recast as
  a vector, and the six arguments unchanged.

  After the region the program recasts the 300000 × 1 output as a vector of 300000; nothing else follows.  The output
  array after the region is the column of scores (the blocks of 6000 rows cover it), so the result is that column
  recast.
-/
import proofs.«163332_j47588237639882_2_alg».proof.Proof.Gen.KernelIdeal.Frame
import proofs.«163332_j47588237639882_2_alg».proof.Proof.EdgeBlocks
import Idealize.ShloMosaic.Lib.Pipeline.Value
import Idealize.ShloMosaic.Lib.StableHlo.Run

noncomputable section

namespace Cert.KernelIdeal.Result

open Cert.KernelIdeal Cert.KernelIdeal.Gen Idealize.ShloMosaic Idealize.ShloMosaic.TcCoe
open Idealize.ShloMosaic.StableHlo Idealize.SL.Sem
open Idealize.ShloMosaic.Pipeline (Dat)

variable (m : (ℓ : Loc nD τ sig) → Buf (Elt Ideal) ℓ) (ρ : Dev nD → PrngReg)

/-- The vector of scores: the column recast. -/
def scoresVec (c : Dev nD) : S300000.Idx → EReal :=
  shapeCast S300000 (Cert.KernelIdeal.Blocks.column m c) shapeCasts_S300000x1_S300000

/-- What the one operation after the region leaves in the result: the output array, which is the column of scores, recast. -/
theorem tail_result (c : Dev nD) :
    Pipeline.afterTail₀ cfgs (dats m) 0 (V0 m) [hostOps1] c main_v0 = scoresVec m c := by
  unfold Pipeline.afterTail₀
  show StableHlo.after hostOps1 _ (Proc.devRef .tc main_v0) = _
  after_results
  unfold scoresVec
  rw [(Pipeline.withArrays_arr spec0 launch0.win.arr_inj c _ _ 7).trans (Cert.KernelIdeal.Blocks.final m c)]
  rfl

/-- The run: the result at the vector of scores, the arguments as launched. -/
theorem run : θ_run defs (onTc (τ := τ) (main (F := Ideal))) ⟨m, fun _ => 0, ρ⟩ (fun r => ∀ c : Dev nD,
      r.2.mem ((c.tc : Thread nD τ).loc main_v0) = scoresVec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v0 (Pipeline.mem_restRefs_of main_v0 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 5).trans (((dats m 0 c).arrAt_in 5 rfl _).trans ((A_eq m c 5).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.Operands.lean ====
/-
  The small operands of the edge-scoring region, as the region finds them, read at an index.

  Before the region the program transposes each half of the first-layer weight matrix (so that entry (d, h) of the
  transposed half is the weight of hidden unit h on feature d: entry (h, d) of the first half, entry (h, 256 + d) of
  the second), lays the 256 first-layer biases out as one row and the single second-layer bias as a 1 × 1 matrix; the
  second-layer weight row goes in as it is.  A change of float format is the identity on the extended reals.
-/
import proofs.«163332_j47588237639882_2_alg».proof.Proof.Gen.KernelIdeal.Frame
import proofs.«163332_j47588237639882_2_alg».proof.Proof.EdgeScore
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Operands

open Cert.KernelIdeal Cert.KernelIdeal.Gen Idealize.ShloMosaic Idealize.ShloMosaic.TcCoe Idealize.ShloMosaic.ValueIdx
open Idealize.ShloMosaic.StableHlo Idealize.SL.Sem Cert.EdgeScore

variable (m : (ℓ : Loc nD τ sig) → Buf (Elt Ideal) ℓ)

/-- The transposed first half of the first-layer weights, at (d, h): unit h's weight on the source's feature d. -/
theorem srcWeights_at (c : Dev nD) (d h : Fin 256) :
    (V m c main_call0_v21 : S256x256.Idx → EReal) (ix2 d h) = (m ((c : Thread nD τ).loc main_arg1) : S256x512.Idx → EReal) (ix2 h (lo d)) := by
  have e : (V m c main_call0_v21 : S256x256.Idx → EReal)
      = truncf (F := Ideal) .bf16 (transpose S256x256 [1, 0] (extractStridedSlice S256x256 ![0, 0] (m ((c : Thread nD τ).loc main_arg1)) slices_S256x512_S256x256_0_0) transposes_S256x256_S256x256_1_0) bitsLt_bf16_f32 := by
    show StableHlo.after hostOps0 (fun b => m (c, b)) (Proc.devRef .tc main_call0_v21) = _
    after_results
    rfl
  rw [e, truncf_apply, transpose_ix2_apply]
  exact extractStridedSlice_apply _ _ _ _ _ fun a => match a with
    | ⟨0, _⟩ => by show h.val = 0 + h.val; omega
    | ⟨1, _⟩ => by show d.val = 0 + d.val; omega

/-- The transposed second half, at (d, h): unit h's weight on the target's feature d. -/
theorem dstWeights_at (c : Dev nD) (d h : Fin 256) :
    (V m c main_call0_v24 : S256x256.Idx → EReal) (ix2 d h) = (m ((c : Thread nD τ).loc main_arg1) : S256x512.Idx → EReal) (ix2 h (hi d)) := by
  have e : (V m c main_call0_v24 : S256x256.Idx → EReal)
      = truncf (F := Ideal) .bf16 (transpose S256x256 [1, 0] (extractStridedSlice S256x256 ![0, 256] (m ((c : Thread nD τ).loc main_arg1)) slices_S256x512_S256x256_0_256) transposes_S256x256_S256x256_1_0) bitsLt_bf16_f32 := by
    show StableHlo.after hostOps0 (fun b => m (c, b)) (Proc.devRef .tc main_call0_v24) = _
    after_results
    rfl
  rw [e, truncf_apply, transpose_ix2_apply]
  exact extractStridedSlice_apply _ _ _ _ _ fun a => match a with
    | ⟨0, _⟩ => by show h.val = 0 + h.val; omega
    | ⟨1, _⟩ => by show 256 + d.val = 256 + d.val; omega

/-- The first-layer biases laid out as one row, at (0, h): unit h's bias. -/
theorem biasRow_at (c : Dev nD) (h : Fin 256) :
    (V m c main_call0_v25 : S1x256.Idx → EReal) (ix2 (0 : Fin 1) h) = (m ((c : Thread nD τ).loc main_arg2) : S256.Idx → EReal) (ix1 h) := by
  have e : (V m c main_call0_v25 : S1x256.Idx → EReal)
      = shapeCast S1x256 (m ((c : Thread nD τ).loc main_arg2)) shapeCasts_S256_S1x256 := by
    show StableHlo.after hostOps0 (fun b => m (c, b)) (Proc.devRef .tc main_call0_v25) = _
    after_results
    rfl
  rw [e]
  refine shapeCast_apply (s := S256) (t := S1x256) _ shapeCasts_S256_S1x256 (ix2 (0 : Fin 1) h) (ix1 h) ?_
  show (S256.rowMajor (ix1 h)).val = (S1x256.rowMajor (ix2 (0 : Fin 1) h)).val
  rw [Shape.rowMajor_val_one, Shape.rowMajor_val_two]
  show h.val = 0 * 256 + h.val
  omega

/-- The second-layer bias as a 1 × 1 matrix, at (0, 0). -/
theorem biasCell_at (c : Dev nD) :
    (V m c main_call0_v26 : S1x1.Idx → EReal) (ix2 (0 : Fin 1) (0 : Fin 1)) = (m ((c : Thread nD τ).loc main_arg4) : S1.Idx → EReal) (ix1 (0 : Fin 1)) := by
  have e : (V m c main_call0_v26 : S1x1.Idx → EReal)
      = shapeCast S1x1 (m ((c : Thread nD τ).loc main_arg4)) shapeCasts_S1_S1x1 := by
    show StableHlo.after hostOps0 (fun b => m (c, b)) (Proc.devRef .tc main_call0_v26) = _
    after_results
    rfl
  rw [e]
  refine shapeCast_apply (s := S1) (t := S1x1) _ shapeCasts_S1_S1x1 (ix2 (0 : Fin 1) (0 : Fin 1)) (ix1 (0 : Fin 1)) ?_
  show (S1.rowMajor (ix1 (0 : Fin 1))).val = (S1x1.rowMajor (ix2 (0 : Fin 1) (0 : Fin 1))).val
  rw [Shape.rowMajor_val_one, Shape.rowMajor_val_two]
  rfl

end Cert.KernelIdeal.Operands

end
-- ==== Proof.ReferenceScore.lean ====
/-
  The reference's column of scores is the specification's.

  The reference takes, for every edge, the dot products of the two gathered feature rows with the two halves of each
  weight row (a product contracting the second axes of both operands, so no transposition is written), adds the bias
  broadcast over the edges, clips at zero, contracts with the second-layer weight row and adds the second-layer bias
  broadcast over the edges.  Read at row e of the resulting column, operation by operation, this is the score of edge e.
  The only index facts used: the second half of a weight row starts at column 256, and a one-column matrix has only
  column 0.
-/
import proofs.«163332_j47588237639882_2_alg».proof.Proof.Gen.ReferenceIdeal.Read
import proofs.«163332_j47588237639882_2_alg».proof.Proof.EdgeScore

noncomputable section

namespace Cert.ReferenceIdeal.Score

open Cert.ReferenceIdeal Cert.ReferenceIdeal.Read Idealize.ShloMosaic Idealize.ShloMosaic.ValueIdx Cert.EdgeScore

/-- The column the reference reshapes into its result is the column of edge scores of its own two gathers. -/
theorem column_eq (x0 : (⟨S100000x256, .f32⟩ : BufTy).Contents (Elt Ideal)) (x1 : (⟨S256x512, .f32⟩ : BufTy).Contents (Elt Ideal))
    (x2 : (⟨S256, .f32⟩ : BufTy).Contents (Elt Ideal)) (x3 : (⟨S1x256, .f32⟩ : BufTy).Contents (Elt Ideal))
    (x4 : (⟨S1, .f32⟩ : BufTy).Contents (Elt Ideal)) (x5 : (⟨S2x300000, .i32⟩ : BufTy).Contents (Elt Ideal)) :
    val_main_v30 (F := Ideal) x0 x1 x2 x3 x4 x5
      = scores (val_main_v8 (F := Ideal) x0 x5) (val_main_v17 (F := Ideal) x0 x5) x1 x2 x3 x4 := by
  funext j
  have e1 : ∀ (k d : Fin 256), lidx_main_v20 (lidx_main_v27 j k) d = ix2 (j 0) d := fun k d =>
    funext fun a => Fin.ext (by match a with | ⟨0, _⟩ => rfl | ⟨1, _⟩ => rfl)
  have e2 : ∀ (k d : Fin 256), idx_main_v18 (ridx_main_v20 (lidx_main_v27 j k) d) = ix2 k (lo d) := fun k d =>
    funext fun a => Fin.ext (by match a with | ⟨0, _⟩ => rfl | ⟨1, _⟩ => rfl)
  have e3 : ∀ (k d : Fin 256), lidx_main_v21 (lidx_main_v27 j k) d = ix2 (j 0) d := fun k d =>
    funext fun a => Fin.ext (by match a with | ⟨0, _⟩ => rfl | ⟨1, _⟩ => rfl)
  have e4 : ∀ (k d : Fin 256), idx_main_v19 (ridx_main_v21 (lidx_main_v27 j k) d) = ix2 k (hi d) := fun k d =>
    funext fun a => Fin.ext (by match a with | ⟨0, _⟩ => rfl | ⟨1, _⟩ => rfl)
  have e5 : ∀ k : Fin 256, idx_main_v23 (idx_main_v24 (lidx_main_v27 j k)) = ix1 k := fun k =>
    funext fun a => Fin.ext (by match a with | ⟨0, _⟩ => rfl)
  have e6 : ∀ k : Fin 256, ridx_main_v27 j k = ix2 (0 : Fin 1) k := fun k =>
    funext fun a => Fin.ext (by
      match a with
      | ⟨0, _⟩ => have h1 : (j 1).val < 1 := (j 1).isLt; show (j 1).val = 0; omega
      | ⟨1, _⟩ => rfl)
  have e7 : idx_main_v28 (idx_main_v29 j) = ix1 (0 : Fin 1) :=
    funext fun a => Fin.ext (by match a with | ⟨0, _⟩ => rfl)
  unfold scores score
  simp only [val_main_v30_apply, val_main_v27_apply, val_main_v29_apply, val_main_v28_apply, val_main_v26_apply, val_main_v25_apply,
    val_main_v22_apply, val_main_v20_apply, val_main_v21_apply, val_main_v18_apply, val_main_v19_apply, val_main_v24_apply,
    val_main_v23_apply, val_main_call0_v0_apply, val_main_call0_cst_apply, e1, e2, e3, e4, e5, e6, e7,
    Ideal.addf_def, Ideal.maximumf_def, Ideal.ofBits_def]
  rfl

end Cert.ReferenceIdeal.Score

end
-- ==== Proof.Bridge.lean ====
/-
  The kernel's column of scores, from the arguments alone, in the reference's words.

  Both programs bring the edge list's two rows into range the same way (a negative node number has the table's height
  added) and gather the rows of the feature table those numbers name; the kernel rounds the table to a narrower float
  format first, which is the identity on the extended reals.  So the two gathered matrices the region finds are the
  two the reference forms.  With the small operands read back to the arguments (the transposed halves of the weight
  matrix, the bias row, the bias cell), the column the region leaves is the column of edge scores of the arguments.
-/
import proofs.«163332_j47588237639882_2_alg».proof.Proof.Operands
import proofs.«163332_j47588237639882_2_alg».proof.Proof.EdgeBlocks
import proofs.«163332_j47588237639882_2_alg».proof.Proof.ReferenceScore

noncomputable section

namespace Cert.KernelIdeal.Bridge

open Cert.KernelIdeal Cert.KernelIdeal.Gen Idealize.ShloMosaic Idealize.ShloMosaic.TcCoe Idealize.ShloMosaic.ValueIdx
open Idealize.ShloMosaic.StableHlo Idealize.SL.Sem Cert.EdgeScore

variable (m : (ℓ : Loc nD τ sig) → Buf (Elt Ideal) ℓ)

/-- The gathered source features the region finds are the reference's gather of the same table by the same numbers. -/
theorem src_eq (c : Dev nD) :
    (V m c main_call0_v11 : S300000x256.Idx → EReal)
      = Cert.ReferenceIdeal.Read.val_main_v8 (F := Ideal) (m ((c : Thread nD τ).loc main_arg0)) (m ((c : Thread nD τ).loc main_arg5)) := by
  show StableHlo.after hostOps0 (fun b => m (c, b)) (Proc.devRef .tc main_call0_v11) = _
  after_results
  rfl

/-- The gathered target features likewise. -/
theorem dst_eq (c : Dev nD) :
    (V m c main_call0_v18 : S300000x256.Idx → EReal)
      = Cert.ReferenceIdeal.Read.val_main_v17 (F := Ideal) (m ((c : Thread nD τ).loc main_arg0)) (m ((c : Thread nD τ).loc main_arg5)) := by
  show StableHlo.after hostOps0 (fun b => m (c, b)) (Proc.devRef .tc main_call0_v18) = _
  after_results
  rfl

/-- The column the region leaves is the column of edge scores of the arguments. -/
theorem column_eq (c : Dev nD) :
    Cert.KernelIdeal.Blocks.column m c
      = scores (Cert.ReferenceIdeal.Read.val_main_v8 (F := Ideal) (m ((c : Thread nD τ).loc main_arg0)) (m ((c : Thread nD τ).loc main_arg5)))
          (Cert.ReferenceIdeal.Read.val_main_v17 (F := Ideal) (m ((c : Thread nD τ).loc main_arg0)) (m ((c : Thread nD τ).loc main_arg5)))
          (m ((c : Thread nD τ).loc main_arg1)) (m ((c : Thread nD τ).loc main_arg2)) (m ((c : Thread nD τ).loc main_arg3)) (m ((c : Thread nD τ).loc main_arg4)) := by
  funext j
  unfold Cert.KernelIdeal.Blocks.column scores
  rw [src_eq m c, dst_eq m c, V_main_arg3 m c, Cert.KernelIdeal.Operands.biasCell_at m c]
  simp only [Cert.KernelIdeal.Operands.srcWeights_at m c, Cert.KernelIdeal.Operands.dstWeights_at m c, Cert.KernelIdeal.Operands.biasRow_at m c]

end Cert.KernelIdeal.Bridge

end
-- ==== Proof.lean ====
/-
  A link predictor on a graph: for each of 300000 edges, gather the 256 features of its two end nodes from a table of
  100000 nodes, and score the pair with a two-layer perceptron — 256 hidden units over the two feature rows laid end
  to end (a 256 × 512 weight matrix, split into the half that meets the source's features and the half that meets the
  target's), a clip at zero, one output unit.

  The kernel gathers outside its region, hands the region blocks of 6000 edges with the weight halves transposed
  beforehand, and inside forms the two matrix products, the clip, a multiply by the output weights and a sum along
  each row; the reference writes the same network as three contractions over whole arrays.  On the extended reals
  both are, edge by edge, the one term `Cert.EdgeScore.score`: sums over a commutative monoid in the same order of
  factors, so no algebraic law beyond reading each operation at an index is used and the finiteness of the inputs is
  never opened.  A change of float format is the identity there, a matrix product into a zero accumulator and a row sum
  from zero are plain sums, and the blocks of 6000 rows tile the 300000.

  The three frames are the generated ones (the reference's is its generated run with the result dropped); the
  idealization rewrote nothing, so there is nothing to preserve.
-/
import proofs.«163332_j47588237639882_2_alg».proof.Defs
import proofs.«163332_j47588237639882_2_alg».proof.Proof.Gen.Kernel
import proofs.«163332_j47588237639882_2_alg».proof.Proof.Gen.Kernel.Skeleton
import proofs.«163332_j47588237639882_2_alg».proof.Proof.Gen.Kernel.Launch
import proofs.«163332_j47588237639882_2_alg».proof.Proof.Gen.Kernel.Points
import proofs.«163332_j47588237639882_2_alg».proof.Proof.Gen.Kernel.Frame
import proofs.«163332_j47588237639882_2_alg».proof.Proof.Gen.KernelIdeal
import proofs.«163332_j47588237639882_2_alg».proof.Proof.Gen.KernelIdeal.Skeleton
import proofs.«163332_j47588237639882_2_alg».proof.Proof.Gen.KernelIdeal.Launch
import proofs.«163332_j47588237639882_2_alg».proof.Proof.Gen.KernelIdeal.Points
import proofs.«163332_j47588237639882_2_alg».proof.Proof.Gen.KernelIdeal.Frame
import proofs.«163332_j47588237639882_2_alg».proof.Proof.Gen.ReferenceIdeal
import proofs.«163332_j47588237639882_2_alg».proof.Proof.Gen.Pre_finite_inputs
import proofs.«163332_j47588237639882_2_alg».proof.Proof.Gen.ReferenceIdeal.Run
import proofs.«163332_j47588237639882_2_alg».proof.Proof.Gen.ReferenceIdeal.Read
import proofs.«163332_j47588237639882_2_alg».proof.Proof.KernelRun
import proofs.«163332_j47588237639882_2_alg».proof.Proof.Bridge
import proofs.«163332_j47588237639882_2_alg».proof.Proof.ReferenceScore
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the vector of edge scores of the arguments: the kernel's output column is the column of
    scores (block by block, then the cover), the reference's last column is the same column operation by operation,
    and both recast the column as a vector. -/
theorem algebraic : Cert.algebraic_KernelIdeal_ReferenceIdeal := by
  intro m ρ m' ρ' _ hagree
  refine ⟨fun c => Cert.KernelIdeal.Result.scoresVec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Result.scoresVec m c
  rw [Cert.ReferenceIdeal.Read.val_main_v31_eq]
  unfold Cert.ReferenceIdeal.Read.val_main_v31 Cert.KernelIdeal.Result.scoresVec
  rw [Cert.ReferenceIdeal.Score.column_eq, Cert.KernelIdeal.Bridge.column_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
